-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S1024x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S_ : Shape := ⟨0, ![]⟩
abbrev S32 : Shape := ⟨1, ![32]⟩
abbrev S64 : Shape := ⟨1, ![64]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  reducesTo_S_S_d : S_.ReducesTo [] S_
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v12 : IVec S_ 1) (main_v15 : IVec S32 1) (main_c_5 : IVec S_ 1) : IVec S_ 1 :=
  let main_v16 : IVec S_ 1 := (fun x v => Host.reduce IntOp.andi x v reducesTo_S32_S_d0 h_S_) main_v15 main_c_5
  let main_v17 : IVec S_ 1 := andi main_v12 main_v16
  let main_v18 : FVec F S64 .f32 := Host.absf main_arg4
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v17 main_v21
  main_v22

def fn {F : FTy → Type} [FloatOps F] (main_arg0 : FVec F S8192x4096 .f32) (main_arg1 : FVec F S4096x2048 .f32) (main_arg2 : FVec F S_ .f32) (main_arg3 : FVec F S32 .f32) (main_arg4 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S32 .f32 := Host.absf main_arg3
  let main_cst_4 : FVec F S_ .f32 := constant S_ .f32 0x7F800000#32
  let main_v14 : FVec F S32 .f32 := broadcastInDim S32 ![] bcast_S_S32 main_cst_4
  let main_v15 : IVec S32 1 := cmpf .olt main_v13 main_v14
  let main_c_5 : IVec S_ 1 := constantI S_ 1 1#1
  fn_part1 (F := F) main_arg4 main_v12 main_v15 main_c_5
-- ==== Kernel.lean ====
abbrev S8192x4096 : Shape := ⟨2, ![8192, 4096]⟩
abbrev S4096x2048 : Shape := ⟨2, ![4096, 2048]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S1x2048 : Shape := ⟨2, ![1, 2048]⟩
abbrev S8192x2048 : Shape := ⟨2, ![8192, 2048]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 24
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S_, .f32⟩
  | .hbm, ⟨3, _⟩ => ⟨S32, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S32x1, .f32⟩
  | .hbm, ⟨14, _⟩ => ⟨S1x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S1x2048, .f32⟩
  | .hbm, ⟨21, _⟩ => ⟨S4096x2048, .f32⟩
  | .hbm, ⟨22, _⟩ => ⟨S4096x2048, .bf16⟩
  | .hbm, ⟨23, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_v0 : Ref sig .tc := ⟨.hbm, 6, rfl⟩
abbrev main_call1_cst : Ref sig .tc := ⟨.hbm, 7, rfl⟩
abbrev main_call1_v0 : Ref sig .tc := ⟨.hbm, 8, rfl⟩
abbrev main_v1 : Ref sig .tc := ⟨.hbm, 9, rfl⟩
abbrev main_call2_cst : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S32 : S_.BroadcastsInDim S32 (![] : Fin 0 → Fin S32.rank)
  bcast_S_S64 : S_.BroadcastsInDim S64 (![] : Fin 0 → Fin S64.rank)
  bcast_S32_S32x1_0 : S32.BroadcastsInDim S32x1 (![0] : Fin 1 → Fin S32x1.rank)
  bcast_S64_S1x64_1 : S64.BroadcastsInDim S1x64 (![1] : Fin 1 → Fin S1x64.rank)
  bcast_S32x1_S32x64_0_1 : S32x1.BroadcastsInDim S32x64 (![0, 1] : Fin 2 → Fin S32x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  shapeCasts_S32x64_S1x2048 : S32x64.ShapeCasts S1x2048
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x2048.size a
  hwx0_1 : ∀ i : grid0.Coords, EltTy.bits .bf16 = 32 ∨ (Rect.block (s := S4096x2048) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x2048.size a
  hwx0_3 : ∀ i : grid0.Coords, EltTy.bits .f32 = 32 ∨ (Rect.block (s := S8192x2048) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S_, .f32⟩
  | .hbm, ⟨3, _⟩ => ⟨S32, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S8192x4096, .f32⟩
  | .hbm, ⟨14, _⟩ => ⟨S4096x2048, .f32⟩
  | .hbm, ⟨15, _⟩ => ⟨S32x1, .f32⟩
  | .hbm, ⟨16, _⟩ => ⟨S1x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_v0 : Ref sig .tc := ⟨.hbm, 6, rfl⟩
abbrev main_call1_cst : Ref sig .tc := ⟨.hbm, 7, rfl⟩
abbrev main_call1_v0 : Ref sig .tc := ⟨.hbm, 8, rfl⟩
abbrev main_v1 : Ref sig .tc := ⟨.hbm, 9, rfl⟩
abbrev main_call2_cst : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S_S64 : S_.BroadcastsInDim S64 (![] : Fin 0 → Fin S64.rank)
  bcast_S32_S32x1_0 : S32.BroadcastsInDim S32x1 (![0] : Fin 1 → Fin S32x1.rank)
  bcast_S64_S1x64_1 : S64.BroadcastsInDim S1x64 (![1] : Fin 1 → Fin S1x64.rank)
  bcast_S32x1_S32x64_0_1 : S32x1.BroadcastsInDim S32x64 (![0, 1] : Fin 2 → Fin S32x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  shapeCasts_S32x64_S2048 : S32x64.ShapeCasts S2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x4096_S4096x2048_S8192x2048_1_0_0_1_n_n_wf : DotDims.WF S8192x4096 S4096x2048 S8192x2048 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.BitsSteps.lean ====
/-
  The kernel body of `Kernel`, run once for each of the three positions a grid point can have in its run of eight steps
  along the contraction axis. Every load and store of the body is of a whole buffer, so each run leaves the accumulator
  (and, at the last step, the output buffer) at a pure function of the buffers' contents: the product of the point's two
  blocks at a first step, that product added to the accumulator at a later one, and at the last step also the accumulator
  times the scale row broadcast along the rows.
-/
import proofs.«161092_j21517786153628_2_alg».proof.Proof.Gen.Kernel.Frame
import proofs.«161092_j21517786153628_2_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

/-- The three branch conditions of the body, as the kernel computes them from the third grid coordinate. -/
abbrev condFirst (i : grid0.Coords) : Prop := (Scalar.cmpi .ne (Scalar.extui (Scalar.cmpi .eq (BitVec.ofNat 32 (i 2).val) 0#32)) 0#32) = 1#1
abbrev condLater (i : grid0.Coords) : Prop := (Scalar.cmpi .ne (Scalar.extui (Scalar.cmpi .ne (BitVec.ofNat 32 (i 2).val) 0#32)) 0#32) = 1#1
abbrev condLast (i : grid0.Coords) : Prop := k0_cond3 i = 1#1

local notation "𝕄" => MT nD τ sig Unit (Elt F) ℕ (UR sig nD τ) ℕ

/-- The offsets of every access of the body are zero: each load and store is of a whole buffer. -/
theorem zero_offsets : (![0, 0] : Fin 2 → ℕ) = fun _ => 0 := by
  funext a; fin_cases a <;> rfl

/-- A whole-buffer store leaves its payload in the buffer, whatever it held. -/
theorem read_whole_store {sh : Shape} {e : EltTy} (arg : Memref sig .tc .vmem sh e)
    (off : Fin sh.rank → ℕ) (hoff : off = fun _ => 0) (inb : ∀ a, off a + sh.size a ≤ sh.size a)
    (f : arg.view.ty.Contents (Elt F)) (w : sh.Idx → Elt F e) :
    arg.view.read (Elt F) (arg.view.writes (Elt F) f [⟨Rect.unit off sh.size inb, w⟩]) = w := by
  rw [View.read_writes_eq_canon _ _ _ (fun y => ⟨_, List.mem_singleton_self _, View.mem_set_unit_zero hoff inb y⟩),
    View.canon_unit_zero hoff]

/-- A whole-buffer load reads the buffer's contents. -/
theorem ldX (X : Vec F S1024x512 .f32) : View.ld X (Rect.unit (s := S1024x512) ![0, 0] S1024x512.size inb_S1024x512_S1024x512_0_0) = X :=
  View.ld_unit_zero (S := S1024x512) zero_offsets _ X
theorem ldW (X : Vec F S512x1024 .bf16) : View.ld X (Rect.unit (s := S512x1024) ![0, 0] S512x1024.size inb_S512x1024_S512x1024_0_0) = X :=
  View.ld_unit_zero (S := S512x1024) zero_offsets _ X
theorem ldS (X : Vec F S1x1024 .f32) : View.ld X (Rect.unit (s := S1x1024) ![0, 0] S1x1024.size inb_S1x1024_S1x1024_0_0) = X :=
  View.ld_unit_zero (S := S1x1024) zero_offsets _ X
theorem ldO (X : Vec F S1024x1024 .f32) : View.ld X (Rect.unit (s := S1024x1024) ![0, 0] S1024x1024.size inb_S1024x1024_S1024x1024_0_0) = X :=
  View.ld_unit_zero (S := S1024x1024) zero_offsets _ X

set_option maxHeartbeats 1000000 in
/-- The body at a first step of the contraction axis: the product of the two blocks is stored into the accumulator,
    whatever it held; the two input buffers are left as found and the scale row and the output buffer are not touched. -/
theorem run_first (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (h1 : condFirst i) (h2 : ¬ condLater i) (h3 : ¬ condLast i)
    (x0 : Vec F S1024x512 .f32) (x1 : Vec F S512x1024 .bf16) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k0_pay2 x0 x1)) -∗ K ⟨⟩))
      ⊢ wp frame (wpE (defs₀ (F := F)) Variants.none c none) E (cc0__binmatmul_kernel i arg3 harg3 arg4 harg4 arg5 harg5 arg6 harg6 arg7 harg7) K := by
  simp only [cc0__binmatmul_kernel_eq_skeleton]; unfold cc0__binmatmul_kernel_skel
  unfold owns
  iintro ⟨⟨%f0, %hf0, H0⟩, ⟨%f1, %hf1, H1⟩, ⟨%d7, %f7, -, H7⟩, Hk⟩
  subst hf0 hf1
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [read_whole_store arg7 _ zero_offsets]
  exact congr (congrArg k0_pay2 (ldX _)) (ldW _)

set_option maxHeartbeats 1000000 in
/-- The body at a later step that is not the last: the product of the two blocks is added to what the accumulator held. -/
theorem run_later (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (h1 : ¬ condFirst i) (h2 : condLater i) (h3 : ¬ condLast i)
    (x0 : Vec F S1024x512 .f32) (x1 : Vec F S512x1024 .bf16) (xs : Vec F S1024x1024 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1
            ∗ owns (c : Thread nD τ) arg7 fullShare (k0_pay3 x0 x1 xs)) -∗ K ⟨⟩))
      ⊢ wp frame (wpE (defs₀ (F := F)) Variants.none c none) E (cc0__binmatmul_kernel i arg3 harg3 arg4 harg4 arg5 harg5 arg6 harg6 arg7 harg7) K := by
  simp only [cc0__binmatmul_kernel_eq_skeleton]; unfold cc0__binmatmul_kernel_skel
  unfold owns
  iintro ⟨⟨%f0, %hf0, H0⟩, ⟨%f1, %hf1, H1⟩, ⟨%f7, %hf7, H7⟩, Hk⟩
  subst hf0 hf1 hf7
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [read_whole_store arg7 _ zero_offsets]
  exact congr (congr (congrArg k0_pay3 (ldX _)) (ldW _)) (ldO _)

set_option maxHeartbeats 1000000 in
/-- The body at the last step of the contraction axis: the product is added to the accumulator, and the accumulator
    times the broadcast scale row is stored into the output buffer, whatever that held. -/
theorem run_last (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (h1 : ¬ condFirst i) (h2 : condLater i) (h3 : condLast i)
    (x0 : Vec F S1024x512 .f32) (x1 : Vec F S512x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay4 (k0_pay3 x0 x1 xs) x2)
            ∗ owns (c : Thread nD τ) arg7 fullShare (k0_pay3 x0 x1 xs)) -∗ K ⟨⟩))
      ⊢ wp frame (wpE (defs₀ (F := F)) Variants.none c none) E (cc0__binmatmul_kernel i arg3 harg3 arg4 harg4 arg5 harg5 arg6 harg6 arg7 harg7) K := by
  simp only [cc0__binmatmul_kernel_eq_skeleton]; unfold cc0__binmatmul_kernel_skel
  unfold owns
  iintro ⟨⟨%f0, %hf0, H0⟩, ⟨%f1, %hf1, H1⟩, ⟨%f2, %hf2, H2⟩, ⟨%d6, %f6, -, H6⟩, ⟨%f7, %hf7, H7⟩, Hk⟩
  subst hf0 hf1 hf2 hf7
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    rw [read_whole_store arg6 _ zero_offsets, View.readCov_unit_zero (S := S1024x1024) _ zero_offsets]
    exact congr (congrArg k0_pay4 (congr (congr (congrArg k0_pay3 (ldX _)) (ldW _)) (ldO _))) (ldS _)
  iexists _; isplitr
  swap; · iexact H7
  ipureintro
  sl_unfold_run_names
  rw [read_whole_store arg7 _ zero_offsets]
  exact congr (congr (congrArg k0_pay3 (ldX _)) (ldW _)) (ldO _)

end Cert.Kernel.Body
end
-- ==== Proof.BitsPipeline.lean ====
/-
  The pipelined run of `Kernel`: what the accumulator holds after each grid point, by recursion on the point (restarted at
  the first of every eight consecutive points, added to at the others), the output buffer at a last step as the scaled
  accumulator, the invariant that carries the accumulator from point to point, the body obligation at a generic point by
  cases on the point's position in its run of eight, and from these the run of the whole program and its frame.
-/
import proofs.«161092_j21517786153628_2_alg».proof.Proof.BitsSteps
import Idealize.ShloMosaic.Lib.Pipeline.Frame
import Idealize.ShloMosaic.Lib.Pipeline.FrameBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The grid: 8 row blocks × 2 column blocks × 8 steps of the contraction axis, the steps innermost -/

/-- The first branch is taken at the first step of each run of eight points, -/
theorem hcondFirst : ∀ t : Fin cfg0.N, condFirst (grid0.coords t) ↔ t.val % 8 = 0 :=
  (by decide +kernel : ∀ t : Fin grid0.N, condFirst (grid0.coords t) ↔ t.val % 8 = 0)
/-- the second at every other step, -/
theorem hcondLater : ∀ t : Fin cfg0.N, condLater (grid0.coords t) ↔ ¬ t.val % 8 = 0 :=
  (by decide +kernel : ∀ t : Fin grid0.N, condLater (grid0.coords t) ↔ ¬ t.val % 8 = 0)
/-- the third at the last step. -/
theorem hcondLast : ∀ t : Fin cfg0.N, condLast (grid0.coords t) ↔ t.val % 8 = 7 :=
  (by decide +kernel : ∀ t : Fin grid0.N, condLast (grid0.coords t) ↔ t.val % 8 = 7)

/-- The inputs are never idle; the output is idle, and not written back, at every step but the last. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ t.val % 8 = 7 → cfg0.idle 3 (grid0.coords t) = true := by decide +kernel
theorem noFlush3 : ∀ t : Fin cfg0.N, ¬ t.val % 8 = 7 → (cfg0.win 3).flush t = false := by decide +kernel
theorem live3 : ∀ t : Fin cfg0.N, t.val % 8 = 7 → cfg0.idle 3 (grid0.coords t) = false := by decide +kernel

/-! ## What the accumulator and the output buffer hold after each point -/

/-- The accumulator after the body at position `n`: at the first step of a run the product of the point's two blocks,
    at a later step that product added to what the point before left. -/
def accAt (c : Dev nD) : (n : ℕ) → n < cfg0.N → Vec F S1024x1024 .f32
  | 0, hn => k0_pay2 (iblk m c 0 ⟨0, hn⟩) (iblk m c 1 ⟨0, hn⟩)
  | n + 1, hn =>
    if (n + 1) % 8 = 0 then k0_pay2 (iblk m c 0 ⟨n + 1, hn⟩) (iblk m c 1 ⟨n + 1, hn⟩)
    else k0_pay3 (iblk m c 0 ⟨n + 1, hn⟩) (iblk m c 1 ⟨n + 1, hn⟩) (accAt c n (Nat.lt_of_succ_lt hn))

theorem accAt_first (c : Dev nD) (t : Fin cfg0.N) (h : t.val % 8 = 0) :
    accAt m c t.val t.isLt = k0_pay2 (iblk m c 0 t) (iblk m c 1 t) := by
  obtain ⟨n, hn⟩ := t
  cases n with
  | zero => rfl
  | succ n => exact if_pos h

theorem accAt_later (c : Dev nD) (t : Fin cfg0.N) (h : ¬ t.val % 8 = 0) :
    accAt m c t.val t.isLt = k0_pay3 (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h
  | succ n => exact if_neg h

/-- The output's staging buffer after the body at a last step: the accumulator scaled by the point's scale row.
    (At the other steps the buffer is handed back as found and this term is consulted by nothing.) -/
def outAt (c : Dev nD) (t : Fin cfg0.N) : Vec F S1024x1024 .f32 :=
  k0_pay4 (accAt m c t.val t.isLt) (iblk m c 2 t)

/-- The scratch operand: the accumulator, a whole scoped buffer of the kernel's own. -/
abbrev accM : Memref sig .tc .vmem S1024x1024 .f32 := Memref.whole cc0_scratch0

/-- The class invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-- The region invariant before position `n`: before the first point the class's (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The pipeline's proof data -/

/-- The proof data of the one pipeline on core `c`: the arrays as the region finds them; after the body each input's
    buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the point's position in its run of eight says which
    branches are taken; the invariant hands the body the accumulator at what the point before left (at anything at a first
    step) and takes it back at this point's contents; the output's buffer is handed back untouched at every step but
    the last, where it is left at the scaled accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  by_cases h0 : t.val % 8 = 0
  · have h7 : ¬ t.val % 8 = 7 := by omega
    rw [Dat.leavesExact_idle (dats m 0 c) 3 t (idle3 t h7) (noFlush3 t h7), accAt_first m c t h0]
    have hin : (dats m 0 c).Φ t.castSucc ⊢ iprop(iprop((∃ d, owns (c : Thread nD τ) accM fullShare d)) ∗ (∃ r, prngReg c r)) := by
      rw [PhiS_castSucc m c t]
      by_cases hz : t.val = 0
      · rw [PhiS_zero m c _ _ hz, PhiA_eq]
      · rw [PhiS_pos m c _ _ hz]
        iintro ⟨HS, Hg⟩
        isplitl [HS]
        · iexists _; iexact HS
        iexact Hg
    iintro ⟨HΦ, Ho, ⟨%d0, H0⟩, ⟨%d1, H1⟩, ⟨%d2, H2⟩, H3⟩
    ihave ⟨HS, Hg⟩ := hin $$ HΦ
    iapply (run_first c Set.univ (grid0.coords t) _ _ _ _ _ _ _ _ _ _ ((hcondFirst t).mpr h0)
      (fun h => (hcondLater t).mp h h0) (fun h => h7 ((hcondLast t).mp h)) (iblk m c 0 t) (iblk m c 1 t) _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · have hz : t.val ≠ 0 := fun h => h0 (by rw [h])
    rw [accAt_later m c t h0, PhiS_castSucc m c t, PhiS_pos m c _ _ hz]
    by_cases h7 : t.val % 8 = 7
    · rw [show (dats m 0 c).leavesExact 3 t = owns (c : Thread nD τ) (st0_3 t) fullShare ((dats m 0 c).after 3 t) from by
        unfold Dat.leavesExact; rw [live3 t h7], after3]
      unfold outAt; rw [accAt_later m c t h0]
      iintro ⟨⟨HS, Hg⟩, Ho, ⟨%d0, H0⟩, ⟨%d1, H1⟩, ⟨%d2, H2⟩, ⟨%d3, H3⟩⟩
      iapply (run_last c Set.univ (grid0.coords t) _ _ _ _ _ _ _ _ _ _ (fun h => h0 ((hcondFirst t).mp h))
        ((hcondLater t).mpr h0) ((hcondLast t).mpr h7) (iblk m c 0 t) (iblk m c 1 t) (iblk m c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (idle3 t h7) (noFlush3 t h7)]
      iintro ⟨⟨HS, Hg⟩, Ho, ⟨%d0, H0⟩, ⟨%d1, H1⟩, ⟨%d2, H2⟩, H3⟩
      iapply (run_later c Set.univ (grid0.coords t) _ _ _ _ _ _ _ _ _ _ (fun h => h0 ((hcondFirst t).mp h))
        ((hcondLater t).mpr h0) (fun h => h7 ((hcondLast t).mp h)) (iblk m c 0 t) (iblk m c 1 t) _ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

/-! ## The run and the frame -/

set_option backward.isDefEq.respectTransparency.types false in
/-- Every weakly fair execution of the program terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body
end
-- ==== Proof.IdealSteps.lean ====
/-
  The kernel body of `KernelIdeal`, run once for each of the three positions a grid point can have in its run of eight steps
  along the contraction axis. Every load and store of the body is of a whole buffer, so each run leaves the accumulator
  (and, at the last step, the output buffer) at a pure function of the buffers' contents: the product of the point's two
  blocks at a first step, that product added to the accumulator at a later one, and at the last step also the accumulator
  times the scale row broadcast along the rows.
-/
import proofs.«161092_j21517786153628_2_alg».proof.Proof.Gen.KernelIdeal.Frame
import proofs.«161092_j21517786153628_2_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The three branch conditions of the body, as the kernel computes them from the third grid coordinate. -/
abbrev condFirst (i : grid0.Coords) : Prop := (Scalar.cmpi .ne (Scalar.extui (Scalar.cmpi .eq (BitVec.ofNat 32 (i 2).val) 0#32)) 0#32) = 1#1
abbrev condLater (i : grid0.Coords) : Prop := (Scalar.cmpi .ne (Scalar.extui (Scalar.cmpi .ne (BitVec.ofNat 32 (i 2).val) 0#32)) 0#32) = 1#1
abbrev condLast (i : grid0.Coords) : Prop := k0_cond3 i = 1#1

local notation "𝕄" => MT nD τ sig Unit (Elt F) ℕ (UR sig nD τ) ℕ

/-- The offsets of every access of the body are zero: each load and store is of a whole buffer. -/
theorem zero_offsets : (![0, 0] : Fin 2 → ℕ) = fun _ => 0 := by
  funext a; fin_cases a <;> rfl

/-- A whole-buffer store leaves its payload in the buffer, whatever it held. -/
theorem read_whole_store {sh : Shape} {e : EltTy} (arg : Memref sig .tc .vmem sh e)
    (off : Fin sh.rank → ℕ) (hoff : off = fun _ => 0) (inb : ∀ a, off a + sh.size a ≤ sh.size a)
    (f : arg.view.ty.Contents (Elt F)) (w : sh.Idx → Elt F e) :
    arg.view.read (Elt F) (arg.view.writes (Elt F) f [⟨Rect.unit off sh.size inb, w⟩]) = w := by
  rw [View.read_writes_eq_canon _ _ _ (fun y => ⟨_, List.mem_singleton_self _, View.mem_set_unit_zero hoff inb y⟩),
    View.canon_unit_zero hoff]

/-- A whole-buffer load reads the buffer's contents. -/
theorem ldX (X : Vec F S1024x512 .f32) : View.ld X (Rect.unit (s := S1024x512) ![0, 0] S1024x512.size inb_S1024x512_S1024x512_0_0) = X :=
  View.ld_unit_zero (S := S1024x512) zero_offsets _ X
theorem ldW (X : Vec F S512x1024 .bf16) : View.ld X (Rect.unit (s := S512x1024) ![0, 0] S512x1024.size inb_S512x1024_S512x1024_0_0) = X :=
  View.ld_unit_zero (S := S512x1024) zero_offsets _ X
theorem ldS (X : Vec F S1x1024 .f32) : View.ld X (Rect.unit (s := S1x1024) ![0, 0] S1x1024.size inb_S1x1024_S1x1024_0_0) = X :=
  View.ld_unit_zero (S := S1x1024) zero_offsets _ X
theorem ldO (X : Vec F S1024x1024 .f32) : View.ld X (Rect.unit (s := S1024x1024) ![0, 0] S1024x1024.size inb_S1024x1024_S1024x1024_0_0) = X :=
  View.ld_unit_zero (S := S1024x1024) zero_offsets _ X

set_option maxHeartbeats 1000000 in
/-- The body at a first step of the contraction axis: the product of the two blocks is stored into the accumulator,
    whatever it held; the two input buffers are left as found and the scale row and the output buffer are not touched. -/
theorem run_first (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (h1 : condFirst i) (h2 : ¬ condLater i) (h3 : ¬ condLast i)
    (x0 : Vec F S1024x512 .f32) (x1 : Vec F S512x1024 .bf16) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k0_pay2 x0 x1)) -∗ K ⟨⟩))
      ⊢ wp frame (wpE (defs₀ (F := F)) Variants.none c none) E (cc0__binmatmul_kernel i arg3 harg3 arg4 harg4 arg5 harg5 arg6 harg6 arg7 harg7) K := by
  simp only [cc0__binmatmul_kernel_eq_skeleton]; unfold cc0__binmatmul_kernel_skel
  unfold owns
  iintro ⟨⟨%f0, %hf0, H0⟩, ⟨%f1, %hf1, H1⟩, ⟨%d7, %f7, -, H7⟩, Hk⟩
  subst hf0 hf1
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [read_whole_store arg7 _ zero_offsets]
  exact congr (congrArg k0_pay2 (ldX _)) (ldW _)

set_option maxHeartbeats 1000000 in
/-- The body at a later step that is not the last: the product of the two blocks is added to what the accumulator held. -/
theorem run_later (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (h1 : ¬ condFirst i) (h2 : condLater i) (h3 : ¬ condLast i)
    (x0 : Vec F S1024x512 .f32) (x1 : Vec F S512x1024 .bf16) (xs : Vec F S1024x1024 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1
            ∗ owns (c : Thread nD τ) arg7 fullShare (k0_pay3 x0 x1 xs)) -∗ K ⟨⟩))
      ⊢ wp frame (wpE (defs₀ (F := F)) Variants.none c none) E (cc0__binmatmul_kernel i arg3 harg3 arg4 harg4 arg5 harg5 arg6 harg6 arg7 harg7) K := by
  simp only [cc0__binmatmul_kernel_eq_skeleton]; unfold cc0__binmatmul_kernel_skel
  unfold owns
  iintro ⟨⟨%f0, %hf0, H0⟩, ⟨%f1, %hf1, H1⟩, ⟨%f7, %hf7, H7⟩, Hk⟩
  subst hf0 hf1 hf7
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  rw [read_whole_store arg7 _ zero_offsets]
  exact congr (congr (congrArg k0_pay3 (ldX _)) (ldW _)) (ldO _)

set_option maxHeartbeats 1000000 in
/-- The body at the last step of the contraction axis: the product is added to the accumulator, and the accumulator
    times the broadcast scale row is stored into the output buffer, whatever that held. -/
theorem run_last (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (h1 : ¬ condFirst i) (h2 : condLater i) (h3 : condLast i)
    (x0 : Vec F S1024x512 .f32) (x1 : Vec F S512x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay4 (k0_pay3 x0 x1 xs) x2)
            ∗ owns (c : Thread nD τ) arg7 fullShare (k0_pay3 x0 x1 xs)) -∗ K ⟨⟩))
      ⊢ wp frame (wpE (defs₀ (F := F)) Variants.none c none) E (cc0__binmatmul_kernel i arg3 harg3 arg4 harg4 arg5 harg5 arg6 harg6 arg7 harg7) K := by
  simp only [cc0__binmatmul_kernel_eq_skeleton]; unfold cc0__binmatmul_kernel_skel
  unfold owns
  iintro ⟨⟨%f0, %hf0, H0⟩, ⟨%f1, %hf1, H1⟩, ⟨%f2, %hf2, H2⟩, ⟨%d6, %f6, -, H6⟩, ⟨%f7, %hf7, H7⟩, Hk⟩
  subst hf0 hf1 hf2 hf7
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    rw [read_whole_store arg6 _ zero_offsets, View.readCov_unit_zero (S := S1024x1024) _ zero_offsets]
    exact congr (congrArg k0_pay4 (congr (congr (congrArg k0_pay3 (ldX _)) (ldW _)) (ldO _))) (ldS _)
  iexists _; isplitr
  swap; · iexact H7
  ipureintro
  sl_unfold_run_names
  rw [read_whole_store arg7 _ zero_offsets]
  exact congr (congr (congrArg k0_pay3 (ldX _)) (ldW _)) (ldO _)

end Cert.KernelIdeal.Body
end
-- ==== Proof.IdealPipeline.lean ====
/-
  The pipelined run of `KernelIdeal`: what the accumulator holds after each grid point, by recursion on the point (restarted at
  the first of every eight consecutive points, added to at the others), the output buffer at a last step as the scaled
  accumulator, the invariant that carries the accumulator from point to point, the body obligation at a generic point by
  cases on the point's position in its run of eight, and from these the run of the whole program and its frame.
-/
import proofs.«161092_j21517786153628_2_alg».proof.Proof.IdealSteps
import Idealize.ShloMosaic.Lib.Pipeline.Frame
import Idealize.ShloMosaic.Lib.Pipeline.FrameBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: 8 row blocks × 2 column blocks × 8 steps of the contraction axis, the steps innermost -/

/-- The first branch is taken at the first step of each run of eight points, -/
theorem hcondFirst : ∀ t : Fin cfg0.N, condFirst (grid0.coords t) ↔ t.val % 8 = 0 :=
  (by decide +kernel : ∀ t : Fin grid0.N, condFirst (grid0.coords t) ↔ t.val % 8 = 0)
/-- the second at every other step, -/
theorem hcondLater : ∀ t : Fin cfg0.N, condLater (grid0.coords t) ↔ ¬ t.val % 8 = 0 :=
  (by decide +kernel : ∀ t : Fin grid0.N, condLater (grid0.coords t) ↔ ¬ t.val % 8 = 0)
/-- the third at the last step. -/
theorem hcondLast : ∀ t : Fin cfg0.N, condLast (grid0.coords t) ↔ t.val % 8 = 7 :=
  (by decide +kernel : ∀ t : Fin grid0.N, condLast (grid0.coords t) ↔ t.val % 8 = 7)

/-- The inputs are never idle; the output is idle, and not written back, at every step but the last. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ t.val % 8 = 7 → cfg0.idle 3 (grid0.coords t) = true := by decide +kernel
theorem noFlush3 : ∀ t : Fin cfg0.N, ¬ t.val % 8 = 7 → (cfg0.win 3).flush t = false := by decide +kernel
theorem live3 : ∀ t : Fin cfg0.N, t.val % 8 = 7 → cfg0.idle 3 (grid0.coords t) = false := by decide +kernel

/-! ## What the accumulator and the output buffer hold after each point -/

/-- The accumulator after the body at position `n`: at the first step of a run the product of the point's two blocks,
    at a later step that product added to what the point before left. -/
def accAt (c : Dev nD) : (n : ℕ) → n < cfg0.N → Vec F S1024x1024 .f32
  | 0, hn => k0_pay2 (iblk m c 0 ⟨0, hn⟩) (iblk m c 1 ⟨0, hn⟩)
  | n + 1, hn =>
    if (n + 1) % 8 = 0 then k0_pay2 (iblk m c 0 ⟨n + 1, hn⟩) (iblk m c 1 ⟨n + 1, hn⟩)
    else k0_pay3 (iblk m c 0 ⟨n + 1, hn⟩) (iblk m c 1 ⟨n + 1, hn⟩) (accAt c n (Nat.lt_of_succ_lt hn))

theorem accAt_first (c : Dev nD) (t : Fin cfg0.N) (h : t.val % 8 = 0) :
    accAt m c t.val t.isLt = k0_pay2 (iblk m c 0 t) (iblk m c 1 t) := by
  obtain ⟨n, hn⟩ := t
  cases n with
  | zero => rfl
  | succ n => exact if_pos h

theorem accAt_later (c : Dev nD) (t : Fin cfg0.N) (h : ¬ t.val % 8 = 0) :
    accAt m c t.val t.isLt = k0_pay3 (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h
  | succ n => exact if_neg h

/-- The output's staging buffer after the body at a last step: the accumulator scaled by the point's scale row.
    (At the other steps the buffer is handed back as found and this term is consulted by nothing.) -/
def outAt (c : Dev nD) (t : Fin cfg0.N) : Vec F S1024x1024 .f32 :=
  k0_pay4 (accAt m c t.val t.isLt) (iblk m c 2 t)

/-- The scratch operand: the accumulator, a whole scoped buffer of the kernel's own. -/
abbrev accM : Memref sig .tc .vmem S1024x1024 .f32 := Memref.whole cc0_scratch0

/-- The class invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-- The region invariant before position `n`: before the first point the class's (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The pipeline's proof data -/

/-- The proof data of the one pipeline on core `c`: the arrays as the region finds them; after the body each input's
    buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the point's position in its run of eight says which
    branches are taken; the invariant hands the body the accumulator at what the point before left (at anything at a first
    step) and takes it back at this point's contents; the output's buffer is handed back untouched at every step but
    the last, where it is left at the scaled accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  by_cases h0 : t.val % 8 = 0
  · have h7 : ¬ t.val % 8 = 7 := by omega
    rw [Dat.leavesExact_idle (dats m 0 c) 3 t (idle3 t h7) (noFlush3 t h7), accAt_first m c t h0]
    have hin : (dats m 0 c).Φ t.castSucc ⊢ iprop(iprop((∃ d, owns (c : Thread nD τ) accM fullShare d)) ∗ (∃ r, prngReg c r)) := by
      rw [PhiS_castSucc m c t]
      by_cases hz : t.val = 0
      · rw [PhiS_zero m c _ _ hz, PhiA_eq]
      · rw [PhiS_pos m c _ _ hz]
        iintro ⟨HS, Hg⟩
        isplitl [HS]
        · iexists _; iexact HS
        iexact Hg
    iintro ⟨HΦ, Ho, ⟨%d0, H0⟩, ⟨%d1, H1⟩, ⟨%d2, H2⟩, H3⟩
    ihave ⟨HS, Hg⟩ := hin $$ HΦ
    iapply (run_first c Set.univ (grid0.coords t) _ _ _ _ _ _ _ _ _ _ ((hcondFirst t).mpr h0)
      (fun h => (hcondLater t).mp h h0) (fun h => h7 ((hcondLast t).mp h)) (iblk m c 0 t) (iblk m c 1 t) _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · have hz : t.val ≠ 0 := fun h => h0 (by rw [h])
    rw [accAt_later m c t h0, PhiS_castSucc m c t, PhiS_pos m c _ _ hz]
    by_cases h7 : t.val % 8 = 7
    · rw [show (dats m 0 c).leavesExact 3 t = owns (c : Thread nD τ) (st0_3 t) fullShare ((dats m 0 c).after 3 t) from by
        unfold Dat.leavesExact; rw [live3 t h7], after3]
      unfold outAt; rw [accAt_later m c t h0]
      iintro ⟨⟨HS, Hg⟩, Ho, ⟨%d0, H0⟩, ⟨%d1, H1⟩, ⟨%d2, H2⟩, ⟨%d3, H3⟩⟩
      iapply (run_last c Set.univ (grid0.coords t) _ _ _ _ _ _ _ _ _ _ (fun h => h0 ((hcondFirst t).mp h))
        ((hcondLater t).mpr h0) ((hcondLast t).mpr h7) (iblk m c 0 t) (iblk m c 1 t) (iblk m c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (idle3 t h7) (noFlush3 t h7)]
      iintro ⟨⟨HS, Hg⟩, Ho, ⟨%d0, H0⟩, ⟨%d1, H1⟩, ⟨%d2, H2⟩, H3⟩
      iapply (run_later c Set.univ (grid0.coords t) _ _ _ _ _ _ _ _ _ _ (fun h => h0 ((hcondFirst t).mp h))
        ((hcondLater t).mpr h0) (fun h => h7 ((hcondLast t).mp h)) (iblk m c 0 t) (iblk m c 1 t) _ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

/-! ## The run and the frame -/

set_option backward.isDefEq.respectTransparency.types false in
/-- Every weakly fair execution of the program terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body
end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«161092_j21517786153628_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibAccMatmul.lean ====
/-
  A matrix product accumulated block by block along the contracted axis, on the extended reals, at any extents.

  The vector unit keeps an accumulator between the steps of the contracted axis: a step adds to it the product of a block of
  columns of the left operand with the matching block of rows of the right operand, computed as a plain matmul into a zero
  accumulator (each operand first cast to its own shape, which changes nothing). Read at an entry, a step adds the partial
  dot product of the step's columns. A quantity that restarts from zero at the first step of each run of J steps and adds the
  step's share at the later ones holds, after step j of a run, the sum of the shares of the run's steps 0 … j; and J partial
  dot products over S consecutive positions each make up the dot product over all J·S positions. Only commutativity and
  associativity of addition are used, so nothing here needs finiteness.
-/
import proofs.«161092_j21517786153628_2_alg».proof.Proof.LibDense
import proofs.«161092_j21517786153628_2_alg».proof.Proof.LibBiasRow
import proofs.«161092_j21517786153628_2_alg».proof.Proof.LibFoldSum

noncomputable section

open scoped BigOperators

namespace Cert.AccMatmul

open Idealize.ShloMosaic Idealize.ShloMosaic.ValueIdx Cert.Dense Cert.BiasRow

/-! ### The payloads at an entry -/

/-- ONE STEP: the accumulator plus a plain matmul into a zero accumulator (operands and result cast to their own shapes),
    at entry (p, q): what the accumulator held there plus the partial dot product of the step's blocks. -/
theorem step_apply {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (s : FVec Ideal ⟨2, ![M, N]⟩ .f32)
    (l : FVec Ideal ⟨2, ![M, K]⟩ .f32) (r : FVec Ideal ⟨2, ![K, N]⟩ .f32)
    (hl : (⟨2, ![M, K]⟩ : Shape).ShapeCasts ⟨2, ![M, K]⟩) (hr : (⟨2, ![K, N]⟩ : Shape).ShapeCasts ⟨2, ![K, N]⟩)
    (ho : (⟨2, ![M, N]⟩ : Shape).ShapeCasts ⟨2, ![M, N]⟩) (p : Fin M) (q : Fin N) :
    shapeCast ⟨2, ![M, N]⟩ (addf s (matmul (F := Ideal) D prec (shapeCast ⟨2, ![M, K]⟩ l hl) (shapeCast ⟨2, ![K, N]⟩ r hr)
        (constant ⟨2, ![M, N]⟩ .f32 0x00000000#32))) ho (ix2 p q)
      = s (ix2 p q) + ∑ k : Fin K, l (ix2 p k) * r (ix2 k q) := by
  rw [shapeCast_self, shapeCast_self, shapeCast_self, matmul_zero_eq_mm D h1 h2 h3 h4 h5 h6]
  rfl

/-- THE ZERO BLOCK: a scalar zero broadcast everywhere (cast to its own shape) is zero at every entry. -/
theorem zero_apply {M N : ℕ} (ho : (⟨2, ![M, N]⟩ : Shape).ShapeCasts ⟨2, ![M, N]⟩) (i : (⟨2, ![M, N]⟩ : Shape).Idx) :
    shapeCast ⟨2, ![M, N]⟩ (broadcast ⟨2, ![M, N]⟩ (Scalar.ofBits (F := Ideal) .f32 0x00000000#32)) ho i = 0 := by
  rw [shapeCast_self]
  exact Ideal.ofBits_zero_f32

/-- THE LAST STEP, rectified: the accumulator plus the one-row bias (cast to its own shape) broadcast to every row, and the
    maximum with a zero splat, at entry (p, q). -/
theorem relu_bias_apply {M N : ℕ} (S : FVec Ideal ⟨2, ![M, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (p : Fin M) (q : Fin N) :
    maximumf (addf S (broadcastTo ⟨2, ![M, N]⟩ (shapeCast ⟨2, ![1, N]⟩ b hs) hb))
        (broadcast ⟨2, ![M, N]⟩ (Scalar.ofBits (F := Ideal) .f32 0x00000000#32)) (ix2 p q)
      = max (S (ix2 p q) + b (ix2 (0 : Fin 1) q)) 0 := by
  rw [shapeCast_self, vecReluBias]
  rfl

/-- THE LAST STEP, plain: the accumulator plus the one-row bias (cast to its own shape) broadcast to every row, at entry (p, q). -/
theorem bias_apply {M N : ℕ} (S : FVec Ideal ⟨2, ![M, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (p : Fin M) (q : Fin N) :
    addf S (broadcastTo ⟨2, ![M, N]⟩ (shapeCast ⟨2, ![1, N]⟩ b hs) hb) (ix2 p q) = S (ix2 p q) + b (ix2 (0 : Fin 1) q) := by
  rw [shapeCast_self, vecAddRow]
  rfl

/-! ### Runs of steps -/

/-- A quantity indexed by the points below N that RESTARTS at the multiples of J from zero plus the point's share and at every
    other point ADDS the point's share to what the point before left holds, at point J·q + j with j < J, the sum of the shares
    of the points J·q … J·q + j. -/
theorem run_sum {α : Type*} [AddCommMonoid α] {N : ℕ} (J : ℕ) (f : (n : ℕ) → n < N → α) (T : ℕ → α)
    (h0 : ∀ (n : ℕ) (h : n < N), n % J = 0 → f n h = 0 + T n)
    (hs : ∀ (n : ℕ) (h : n + 1 < N), ¬(n + 1) % J = 0 → f (n + 1) h = f n (Nat.lt_of_succ_lt h) + T (n + 1))
    (q : ℕ) : ∀ (j : ℕ) (_ : j < J) (h : J * q + j < N), f (J * q + j) h = ∑ s ∈ Finset.range (j + 1), T (J * q + s)
  | 0, _, h => by
    rw [h0 _ h (by rw [Nat.add_zero, Nat.mul_mod_right]), Finset.sum_range_one, zero_add]
  | j + 1, hj, h => by
    have hne : ¬(J * q + j + 1) % J = 0 := by
      rw [Nat.add_assoc, Nat.mul_add_mod, Nat.mod_eq_of_lt hj]; exact Nat.succ_ne_zero j
    rw [Finset.sum_range_succ _ (j + 1), ← run_sum J f T h0 hs q j (Nat.lt_of_succ_lt hj) (Nat.lt_of_succ_lt h)]
    exact hs (J * q + j) h hne

/-- J partial sums over S consecutive positions each are the sum over all J·S positions. -/
theorem sum_range_blocks {α : Type*} [AddCommMonoid α] {J S K : ℕ} (hK : K = J * S) (u : ℕ → α) :
    ∑ s ∈ Finset.range J, ∑ k : Fin S, u (S * s + k.val) = ∑ k : Fin K, u k.val := by
  subst hK
  rw [Finset.sum_range fun s => ∑ k : Fin S, u (S * s + k.val), Cert.FoldSum.sum_blocks rfl fun k : Fin (J * S) => u k.val]

/-- A sum over Fin K of a function of the position's value, against the same terms read at the position itself. -/
theorem sum_val_eq {α : Type*} [AddCommMonoid α] {K : ℕ} (u : ℕ → α) (v : Fin K → α) (h : ∀ k : Fin K, u k.val = v k) :
    ∑ k : Fin K, u k.val = ∑ k : Fin K, v k :=
  Finset.sum_congr rfl fun k _ => h k

end Cert.AccMatmul

/-- info: 'Cert.AccMatmul.step_apply' depends on axioms: [propext, Classical.choice, Quot.sound] -/
#guard_msgs in #print axioms Cert.AccMatmul.step_apply

/-- info: 'Cert.AccMatmul.run_sum' depends on axioms: [propext, Classical.choice, Quot.sound] -/
#guard_msgs in #print axioms Cert.AccMatmul.run_sum

/-- info: 'Cert.AccMatmul.sum_range_blocks' depends on axioms: [propext, Classical.choice, Quot.sound] -/
#guard_msgs in #print axioms Cert.AccMatmul.sum_range_blocks

end
-- ==== Proof.LibSignProduct.lean ====
/-
  A binarized matrix product, on the extended reals and at any extents: the matrix product of the entrywise sign
  of a left operand with a right operand, each column then multiplied by its entry of a one-row array of scales,

      scaled (sgn X) B s (p, q) = (∑ k, sign X(p, k) · B(k, q)) · s(0, q).

  A dot product over K = J·S positions is the sum of its J partial dot products over S consecutive positions each; only
  the commutativity and associativity of addition are used, so no entry need be finite.
-/
import proofs.«161092_j21517786153628_2_alg».proof.Proof.LibDense
import proofs.«161092_j21517786153628_2_alg».proof.Proof.LibAccMatmul

noncomputable section

open scoped BigOperators

namespace Cert.SignProduct

open Idealize.ShloMosaic Idealize.ShloMosaic.ValueIdx Cert.Dense

/-- The sign of every entry: -1 below zero, 1 above it, 0 at zero. -/
def sgn {a b : ℕ} (X : Mat a b) : Mat a b := fun i => Ideal.sign (X i)

theorem sgn_apply {a b : ℕ} (X : Mat a b) (i : (⟨2, ![a, b]⟩ : Shape).Idx) : sgn X i = Ideal.sign (X i) := rfl

/-- A matrix product with each column multiplied by its entry of a one-row array. -/
def scaled {M K N : ℕ} (A : Mat M K) (B : Mat K N) (s : Mat 1 N) : Mat M N :=
  fun i => mm A B i * s (ix2 (0 : Fin 1) (c1 i))

theorem scaled_apply {M K N : ℕ} (A : Mat M K) (B : Mat K N) (s : Mat 1 N) (p : Fin M) (q : Fin N) :
    scaled A B s (ix2 p q) = (∑ k : Fin K, A (ix2 p k) * B (ix2 k q)) * s (ix2 (0 : Fin 1) q) := rfl

/-- The term of a dot product at position `n` of the contracted axis, zero past its end. -/
def term {M K N : ℕ} (A : Mat M K) (B : Mat K N) (p : Fin M) (q : Fin N) (n : ℕ) : EReal :=
  if h : n < K then A (ix2 p ⟨n, h⟩) * B (ix2 ⟨n, h⟩ q) else 0

theorem term_of_lt {M K N : ℕ} (A : Mat M K) (B : Mat K N) (p : Fin M) (q : Fin N) (n : ℕ) (h : n < K) :
    term A B p q n = A (ix2 p ⟨n, h⟩) * B (ix2 ⟨n, h⟩ q) := dif_pos h

/-- J partial dot products over S consecutive positions each make up the dot product over all J·S positions. -/
theorem mm_blocks {M K N J S : ℕ} (hK : K = J * S) (A : Mat M K) (B : Mat K N) (p : Fin M) (q : Fin N) :
    ∑ s ∈ Finset.range J, ∑ r : Fin S, term A B p q (S * s + r.val) = mm A B (ix2 p q) := by
  rw [Cert.AccMatmul.sum_range_blocks hK (term A B p q), mm_apply]
  exact Finset.sum_congr rfl fun k _ => term_of_lt A B p q k.val k.isLt

end Cert.SignProduct

end
-- ==== Proof.IdealPayloads.lean ====
/-
  The body's arithmetic read on the extended reals. The product of a point's two blocks is the matrix product of the
  entrywise sign of the left block with the right block: the body's sign of an entry (one with the entry's sign bit where
  the entry's magnitude is above zero, the entry itself elsewhere) is the sign function at every extended real, the
  narrowing of the signs to sixteen bits changes nothing, and the matrix unit's product into a zero accumulator is the
  plain sum. A later step adds that product to the accumulator entry by entry, and the last step multiplies each entry of
  the accumulator by the entry of the scale row in its column.
-/
import proofs.«161092_j21517786153628_2_alg».proof.Proof.Gen.KernelIdeal.Skeleton
import proofs.«161092_j21517786153628_2_alg».proof.Proof.LibSignProduct

noncomputable section

namespace Cert.KernelIdeal.Payloads

open Idealize.ShloMosaic Idealize.ShloMosaic.ValueIdx Cert.Dense Cert.SignProduct
open Cert.KernelIdeal Cert.KernelIdeal.Gen

/-- The product of the two blocks. -/
theorem pay1_eq (x : Vec Ideal S1024x512 .f32) (w : Vec Ideal S512x1024 .bf16) :
    k0_pay1 (F := Ideal) x w = mm (M := 1024) (K := 512) (N := 1024) (sgn x) w := by
  unfold k0_pay1
  rw [shapeCast_self]
  refine (matmul_zero_eq_mm dot_S1024x512_S512x1024_S1024x1024_1_0_0_1_n_n rfl rfl rfl rfl rfl rfl none _ w).trans ?_
  exact congrArg (fun l => mm (M := 1024) (K := 512) (N := 1024) l w) (funext fun i => Ideal.jnp_sign_eq_sign_f32 (x i))

/-- At a first step the accumulator is set to the product. -/
theorem pay2_eq (x : Vec Ideal S1024x512 .f32) (w : Vec Ideal S512x1024 .bf16) :
    k0_pay2 (F := Ideal) x w = mm (M := 1024) (K := 512) (N := 1024) (sgn x) w := by
  unfold k0_pay2
  rw [shapeCast_self, pay1_eq]

/-- At a later step the product is added to it, entry by entry. -/
theorem pay3_apply (x : Vec Ideal S1024x512 .f32) (w : Vec Ideal S512x1024 .bf16) (a : Vec Ideal S1024x1024 .f32)
    (i : S1024x1024.Idx) :
    k0_pay3 (F := Ideal) x w a i = a i + mm (M := 1024) (K := 512) (N := 1024) (sgn x) w i := by
  unfold k0_pay3
  rw [shapeCast_self, pay1_eq]
  rfl

/-- At the last step each entry of the accumulator is multiplied by its column's entry of the scale row. -/
theorem pay4_apply (a : Vec Ideal S1024x1024 .f32) (s : Vec Ideal S1x1024 .f32) (p q : Fin 1024) :
    k0_pay4 (F := Ideal) a s (ix2 p q) = a (ix2 p q) * s (ix2 (0 : Fin 1) q) := by
  unfold k0_pay4
  rw [shapeCast_self]
  show a (ix2 p q) * broadcastTo S1024x1024 s broadcasts_S1x1024_S1024x1024 (ix2 p q) = _
  rw [broadcastTo_1b_ab_apply]

end Cert.KernelIdeal.Payloads

end
-- ==== Proof.IdealValue.lean ====
/-
  What the idealized kernel leaves in its result array. The grid is 8 row blocks × 2 column blocks × 8 steps, the steps
  innermost: point t works on row block t / 16, column block t / 8 % 2 and step t % 8 of the contraction axis. After step k of
  a run the accumulator holds, at entry (p, q), the sum of the partial dot products of steps 0 … k; each partial dot product
  runs over 512 consecutive positions of the contracted axis, and eight of them make up the whole dot product over its 4096
  positions. So the block written back after a last step is the block of ONE whole-array function of the three arrays the
  windows read: the product of the signs of the left array with the right array, each column scaled by its entry of the
  scale row. The written blocks tile the result array, which therefore ends holding that function.
-/
import proofs.«161092_j21517786153628_2_alg».proof.Proof.IdealPipeline
import proofs.«161092_j21517786153628_2_alg».proof.Proof.IdealPayloads

set_option maxRecDepth 16384

noncomputable section

open scoped BigOperators

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payloads Cert.Dense Cert.SignProduct

variable (m : (ℓ : Loc nD τ sig) → Buf (Elt Ideal) ℓ) (ρ : Dev nD → PrngReg)

/-! ## The three arrays the windows read, and a point's blocks of them -/

/-- The left operand as the region finds it, -/
abbrev arrX (c : Dev nD) : Mat 8192 4096 := V m c main_arg0
/-- the right operand (the signs of the weights, narrowed), -/
abbrev arrW (c : Dev nD) : Mat 4096 2048 := V m c main_v12
/-- and the one-row array of scales. -/
abbrev arrS (c : Dev nD) : Mat 1 2048 := V m c main_v10

/-- The whole-array function the result array ends holding. -/
def result (c : Dev nD) : Mat 8192 2048 := scaled (sgn (arrX m c)) (arrW m c) (arrS m c)

abbrev blkX (c : Dev nD) (t : Fin cfg0.N) : Mat 1024 512 := iblk m c 0 t
abbrev blkW (c : Dev nD) (t : Fin cfg0.N) : Mat 512 1024 := iblk m c 1 t
abbrev blkS (c : Dev nD) (t : Fin cfg0.N) : Mat 1 1024 := iblk m c 2 t

/-- Two rank-2 indices with equal coordinates are equal. -/
theorem ix2_congr {n0 n1 a a' b b' : ℕ} {ha : a < n0} {ha' : a' < n0} {hb : b < n1} {hb' : b' < n1} (ea : a = a') (eb : b = b') :
    ix2 (⟨a, ha⟩ : Fin n0) (⟨b, hb⟩ : Fin n1) = ix2 ⟨a', ha'⟩ ⟨b', hb'⟩ := by
  subst ea eb; rfl

theorem lt128 (t : Fin cfg0.N) : t.val < 128 := lt_of_lt_of_eq t.isLt N_0

/-- The windows' block indices at a point, decided over the grid. -/
theorem idx_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = 0 ∧ win0_2.index t (1 : Fin 2) = t.val / 8 % 2
    ∧ win0_3.index t (0 : Fin 2) = t.val / 16 ∧ win0_3.index t (1 : Fin 2) = t.val / 8 % 2)

/-- An entry of a point's block of the left operand is the array's entry in row block t / 16 and step t % 8. -/
theorem blkX_apply (c : Dev nD) (t : Fin cfg0.N) (p : Fin 1024) (r : Fin 512) :
    blkX m c t (ix2 p r) = arrX m c (ix2 (⟨t.val / 16 * 1024 + p.val, by have := lt128 t; omega⟩ : Fin 8192)
      (⟨t.val % 8 * 512 + r.val, by omega⟩ : Fin 4096)) := by
  show V m c main_arg0 (((cfg0.win 0).blk t).view.emb (ix2 p r)) = _
  obtain ⟨e0, e1, -⟩ := idx_facts t
  refine congrArg _ (funext fun a => Fin.ext ?_)
  match a with
  | ⟨0, _⟩ => show win0_0.index t (0 : Fin 2) * 1024 + 1 * p.val = t.val / 16 * 1024 + p.val; omega
  | ⟨1, _⟩ => show win0_0.index t (1 : Fin 2) * 512 + 1 * r.val = t.val % 8 * 512 + r.val; omega

/-- An entry of a point's block of the right operand is the array's entry at step t % 8 and column block t / 8 % 2. -/
theorem blkW_apply (c : Dev nD) (t : Fin cfg0.N) (r : Fin 512) (q : Fin 1024) :
    blkW m c t (ix2 r q) = arrW m c (ix2 (⟨t.val % 8 * 512 + r.val, by omega⟩ : Fin 4096)
      (⟨t.val / 8 % 2 * 1024 + q.val, by omega⟩ : Fin 2048)) := by
  show V m c main_v12 (((cfg0.win 1).blk t).view.emb (ix2 r q)) = _
  obtain ⟨-, -, e0, e1, -⟩ := idx_facts t
  refine congrArg _ (funext fun a => Fin.ext ?_)
  match a with
  | ⟨0, _⟩ => show win0_1.index t (0 : Fin 2) * 512 + 1 * r.val = t.val % 8 * 512 + r.val; omega
  | ⟨1, _⟩ => show win0_1.index t (1 : Fin 2) * 1024 + 1 * q.val = t.val / 8 % 2 * 1024 + q.val; omega

/-- An entry of a point's block of the scale row is the row's entry in column block t / 8 % 2. -/
theorem blkS_apply (c : Dev nD) (t : Fin cfg0.N) (q : Fin 1024) :
    blkS m c t (ix2 (0 : Fin 1) q) = arrS m c (ix2 (0 : Fin 1) (⟨t.val / 8 % 2 * 1024 + q.val, by omega⟩ : Fin 2048)) := by
  show V m c main_v10 (((cfg0.win 2).blk t).view.emb (ix2 (0 : Fin 1) q)) = _
  obtain ⟨-, -, -, -, e0, e1, -⟩ := idx_facts t
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = t.val / 8 % 2 * 1024 + q.val; omega

/-! ## The accumulator, entry by entry -/

/-- The partial dot product point `n` contributes at entry (p, q), zero past the grid. -/
def share (c : Dev nD) (p q : Fin 1024) (n : ℕ) : EReal :=
  if h : n < cfg0.N then mm (sgn (blkX m c ⟨n, h⟩)) (blkW m c ⟨n, h⟩) (ix2 p q) else 0

theorem share_of_lt (c : Dev nD) (p q : Fin 1024) (n : ℕ) (h : n < cfg0.N) :
    share m c p q n = mm (sgn (blkX m c ⟨n, h⟩)) (blkW m c ⟨n, h⟩) (ix2 p q) := dif_pos h

theorem accAt_congr (c : Dev nD) {n n' : ℕ} (e : n = n') (h : n < cfg0.N) (h' : n' < cfg0.N) :
    accAt m c n h = accAt m c n' h' := by subst e; rfl

/-- After step k of a run the accumulator holds the sum of the partial dot products of the run's steps 0 … k. -/
theorem accAt_entry (c : Dev nD) (p q : Fin 1024) (t : Fin cfg0.N) :
    accAt m c t.val t.isLt (ix2 p q) = ∑ s ∈ Finset.range (t.val % 8 + 1), share m c p q (8 * (t.val / 8) + s) := by
  have e : 8 * (t.val / 8) + t.val % 8 = t.val := Nat.div_add_mod _ _
  have key := Cert.AccMatmul.run_sum (N := cfg0.N) 8 (fun n h => accAt m c n h (ix2 p q)) (share m c p q)
    (fun n h h0 => by
      show accAt m c n h (ix2 p q) = 0 + share m c p q n
      rw [accAt_first m c ⟨n, h⟩ h0, zero_add, pay2_eq, share_of_lt m c p q n h])
    (fun n h hne => by
      show accAt m c (n + 1) h (ix2 p q) = accAt m c n (Nat.lt_of_succ_lt h) (ix2 p q) + share m c p q (n + 1)
      rw [accAt_later m c ⟨n + 1, h⟩ hne, pay3_apply, share_of_lt m c p q (n + 1) h]
      rfl)
    (t.val / 8) (t.val % 8) (Nat.mod_lt _ (by norm_num)) (by rw [e]; exact t.isLt)
  exact (congrFun (accAt_congr m c e.symm t.isLt (by rw [e]; exact t.isLt)) (ix2 p q)).trans key

/-- A point's partial dot product is the run of 512 terms of the whole dot product that its step covers. -/
theorem share_eq_terms (c : Dev nD) (p q : Fin 1024) (t : Fin cfg0.N) (s : ℕ) (hs : s < 8) :
    share m c p q (8 * (t.val / 8) + s)
      = ∑ r : Fin 512, term (sgn (arrX m c)) (arrW m c)
          (⟨t.val / 16 * 1024 + p.val, by have := lt128 t; omega⟩ : Fin 8192)
          (⟨t.val / 8 % 2 * 1024 + q.val, by omega⟩ : Fin 2048) (512 * s + r.val) := by
  have hlt := lt128 t
  have hn : 8 * (t.val / 8) + s < cfg0.N := lt_of_lt_of_eq (by omega : 8 * (t.val / 8) + s < 128) N_0.symm
  rw [share_of_lt m c p q _ hn, mm_apply]
  refine Finset.sum_congr rfl fun r _ => ?_
  have hr := r.isLt
  rw [term_of_lt _ _ _ _ _ (by omega), sgn_apply, sgn_apply, blkX_apply, blkW_apply]
  have e1 : (8 * (t.val / 8) + s) / 16 = t.val / 16 := by omega
  have e2 : (8 * (t.val / 8) + s) % 8 = s := by omega
  have e3 : (8 * (t.val / 8) + s) / 8 % 2 = t.val / 8 % 2 := by omega
  exact congrArg₂ (· * ·)
    (congrArg Ideal.sign (congrArg (arrX m c) (ix2_congr (by dsimp only; omega) (by dsimp only; omega))))
    (congrArg (arrW m c) (ix2_congr (by dsimp only; omega) (by dsimp only; omega)))

/-- After a last step the accumulator holds, at entry (p, q), the whole dot product of the row and the column. -/
theorem accAt_last (c : Dev nD) (p q : Fin 1024) (t : Fin cfg0.N) (h7 : t.val % 8 = 7) :
    accAt m c t.val t.isLt (ix2 p q)
      = mm (sgn (arrX m c)) (arrW m c) (ix2 (⟨t.val / 16 * 1024 + p.val, by have := lt128 t; omega⟩ : Fin 8192)
          (⟨t.val / 8 % 2 * 1024 + q.val, by omega⟩ : Fin 2048)) := by
  rw [accAt_entry, h7, ← mm_blocks (J := 8) (S := 512) rfl]
  exact Finset.sum_congr rfl fun s hs => share_eq_terms m c p q t s (Finset.mem_range.mp hs)

/-! ## From the blocks to the array -/

/-- What a last step writes back is its block of `result`. -/
theorem flushed_eq (c : Dev nD) (t : Fin cfg0.N) (h7 : t.val % 8 = 7) :
    (dats m 0 c).flushed 3 t = ((cfg0.win 3).blk t).view.read (Elt Ideal) (result m c) := by
  show (cfg0.win 3).cut (grid0.coords t) ((dats m 0 c).after 3 t) = _
  rw [after3]
  funext j
  obtain ⟨p, q, rfl⟩ : ∃ (p q : Fin 1024), j = ix2 p q := ⟨j 0, j 1, eq_ix2 j⟩
  show k0_pay4 (F := Ideal) (accAt m c t.val t.isLt) (blkS m c t) (ix2 p q) = result m c (((cfg0.win 3).blk t).view.emb (ix2 p q))
  have hemb : ((cfg0.win 3).blk t).view.emb (ix2 p q)
      = ix2 (⟨t.val / 16 * 1024 + p.val, by have := lt128 t; omega⟩ : Fin 8192) (⟨t.val / 8 % 2 * 1024 + q.val, by omega⟩ : Fin 2048) := by
    obtain ⟨-, -, -, -, -, -, e0, e1⟩ := idx_facts t
    refine funext fun a => Fin.ext ?_
    match a with
    | ⟨0, _⟩ => show win0_3.index t (0 : Fin 2) * 1024 + 1 * p.val = t.val / 16 * 1024 + p.val; omega
    | ⟨1, _⟩ => show win0_3.index t (1 : Fin 2) * 1024 + 1 * q.val = t.val / 8 % 2 * 1024 + q.val; omega
  rw [hemb, pay4_apply, accAt_last m c p q t h7, blkS_apply]
  rfl

/-- An index of the result array is in point `t`'s block iff each coordinate is in the block's range on its axis. -/
theorem mem_blk (t : Fin cfg0.N) (i : S8192x2048.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v13).slice (win0_3.rect t)).set ↔ _
  rw [View.set_slice_whole, Rect.mem_set_unit]
  exact Iff.rfl

/-- Every entry of the result array is in the block some last step writes back. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  let t : Fin cfg0.N := ⟨(i 0).val / 1024 * 16 + (i 1).val / 1024 * 8 + 7,
    lt_of_lt_of_eq (by omega : (i 0).val / 1024 * 16 + (i 1).val / 1024 * 8 + 7 < 128) N_0.symm⟩
  have htv : t.val = (i 0).val / 1024 * 16 + (i 1).val / 1024 * 8 + 7 := rfl
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the run. -/
theorem final (c : Dev nD) : (dats m 0 c).arrAt 3 cfg0.N = result m c :=
  (dats m 0 c).arrAt_eq_of_cover 3 (result m c) (fun t hf => flushed_eq m c t ((flush0_3 t).mp hf)) cover

/-- The run of the idealized kernel, with its result array named and its argument arrays unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Body

end
-- ==== Proof.RefScaled.lean ====
/-
  The reference, read on the extended reals: its result at entry (p, q) is the dot product of the signs of row p of the left
  argument with the signs of column q of the right one, times entry q of its row of scales — the same function as the
  kernel's, with the right operand's signs taken by the reference itself and the scale row its own reshaping of the 32 × 64
  table of scales.
-/
import proofs.«161092_j21517786153628_2_alg».proof.Proof.Gen.ReferenceIdeal.Read
import proofs.«161092_j21517786153628_2_alg».proof.Proof.LibSignProduct

noncomputable section

open scoped BigOperators

namespace Cert.ReferenceIdeal.RefValue

open Idealize.ShloMosaic Idealize.ShloMosaic.ValueIdx Cert.Dense Cert.SignProduct
open Cert.ReferenceIdeal Cert.ReferenceIdeal.Read

/-- The reference's one-row array of scales. -/
abbrev scaleRow (x2 : (⟨S_, .f32⟩ : BufTy).Contents (Elt Ideal)) (x3 : (⟨S32, .f32⟩ : BufTy).Contents (Elt Ideal))
    (x4 : (⟨S64, .f32⟩ : BufTy).Contents (Elt Ideal)) : Mat 1 2048 :=
  Read.val_main_v14 (F := Ideal) x2 x3 x4

/-- The reference's result is the scaled product of the two sign matrices. -/
theorem ref_eq (x0 : Mat 8192 4096) (x1 : Mat 4096 2048) (x2 : (⟨S_, .f32⟩ : BufTy).Contents (Elt Ideal))
    (x3 : (⟨S32, .f32⟩ : BufTy).Contents (Elt Ideal)) (x4 : (⟨S64, .f32⟩ : BufTy).Contents (Elt Ideal)) :
    Read.val_main_v16 (F := Ideal) x0 x1 x2 x3 x4 = scaled (sgn x0) (sgn x1) (scaleRow x2 x3 x4) := by
  funext i
  obtain ⟨p, q, rfl⟩ : ∃ (p : Fin 8192) (q : Fin 2048), i = ix2 p q := ⟨i 0, i 1, eq_ix2 i⟩
  have hl : ∀ k : Fin 4096, Read.lidx_main_v13 (ix2 p q) k = ix2 p k := fun k => funext fun a => by
    match a with
    | ⟨0, _⟩ => rfl
    | ⟨1, _⟩ => rfl
  have hr : ∀ k : Fin 4096, Read.ridx_main_v13 (ix2 p q) k = ix2 k q := fun k => funext fun a => by
    match a with
    | ⟨0, _⟩ => rfl
    | ⟨1, _⟩ => rfl
  have hs : Read.idx_main_v15 (ix2 p q) = ix2 (0 : Fin 1) q := funext fun a => by
    match a with
    | ⟨0, _⟩ => rfl
    | ⟨1, _⟩ => rfl
  rw [Read.val_main_v16_apply, Read.val_main_v13_apply, Read.val_main_v15_apply, scaled_apply, hs]
  simp only [hl, hr]
  rfl

end Cert.ReferenceIdeal.RefValue

end
-- ==== Proof.Bridge.lean ====
/-
  The two remaining arrays the kernel's windows read, as the host operations before the launch leave them: the right
  operand is the entrywise sign of the weights (its narrowing to sixteen bits changes nothing), and the scale row is the
  32 × 64 table of scales laid out as one row of 2048, which at column b is the table's entry (b / 64, b % 64) — exactly
  what the reference's own row of scales holds there. So the kernel's result array is the reference's function of the
  argument arrays.
-/
import proofs.«161092_j21517786153628_2_alg».proof.Proof.IdealValue
import proofs.«161092_j21517786153628_2_alg».proof.Proof.RefScaled
import Idealize.ShloMosaic.Lib.StableHlo.Run

set_option maxRecDepth 16384

noncomputable section

namespace Cert.KernelIdeal.Body

open Idealize.ShloMosaic Idealize.ShloMosaic.TcCoe Idealize.ShloMosaic.ValueIdx Idealize.ShloMosaic.StableHlo
open Idealize.SL Idealize.SL.Sem
open Cert.KernelIdeal Cert.KernelIdeal.Gen Cert.Dense Cert.SignProduct

variable (m : (ℓ : Loc nD τ sig) → Buf (Elt Ideal) ℓ)

/-- The right operand is the sign of the weights. -/
theorem arrW_eq (c : Dev nD) : arrW m c = sgn (m ((c : Thread nD τ).loc main_arg1)) := by
  have e : (V m c main_v12 : S4096x2048.Idx → EReal)
      = truncf .bf16 (Host.sign (F := Ideal) (m ((c : Thread nD τ).loc main_arg1))) bitsLt_bf16_f32 := by
    dsimp only [Gen.V]
    simp only [hostOps0, hostOps0_1, hostOps0_2, hostOps0_3, List.flatten_cons, List.flatten_nil, List.append_nil, List.cons_append,
      List.nil_append]
    after_results <;> rfl
  show (V m c main_v12 : S4096x2048.Idx → EReal) = _
  rw [e]
  rfl

/-- The scale row is the reference's. -/
theorem arrS_eq (c : Dev nD) :
    arrS m c = Cert.ReferenceIdeal.RefValue.scaleRow (m ((c : Thread nD τ).loc main_arg2)) (m ((c : Thread nD τ).loc main_arg3))
      (m ((c : Thread nD τ).loc main_arg4)) := by
  have e : (V m c main_v10 : S1x2048.Idx → EReal)
      = shapeCast S1x2048 (Cert.ReferenceIdeal.Read.val_main_v11 (F := Ideal) (m ((c : Thread nD τ).loc main_arg2))
          (m ((c : Thread nD τ).loc main_arg3)) (m ((c : Thread nD τ).loc main_arg4))) shapeCasts_S32x64_S1x2048 := by
    dsimp only [Gen.V]
    simp only [hostOps0, hostOps0_1, hostOps0_2, hostOps0_3, List.flatten_cons, List.flatten_nil, List.append_nil, List.cons_append,
      List.nil_append]
    after_results <;> rfl
  show (V m c main_v10 : S1x2048.Idx → EReal) = _
  rw [e]
  funext i
  obtain ⟨u, b, rfl⟩ : ∃ (u : Fin 1) (b : Fin 2048), i = ix2 u b := ⟨i 0, i 1, eq_ix2 i⟩
  show _ = Cert.ReferenceIdeal.Read.val_main_v14 (F := Ideal) _ _ _ (ix2 u b)
  rw [Cert.ReferenceIdeal.Read.val_main_v14_apply, Cert.ReferenceIdeal.Read.val_main_v12_apply]
  refine shapeCast_apply _ shapeCasts_S32x64_S1x2048 (ix2 u b) _ ?_
  rw [Shape.rowMajor_val_two, Shape.rowMajor_val_two]
  have hu : u.val = 0 := by omega
  have hb := b.isLt
  show b.val / 64 * 64 + b.val % 64 = u.val * 2048 + b.val
  omega

/-- The kernel's result array is the reference's function of the argument arrays. -/
theorem result_eq (c : Dev nD) :
    result m c = Cert.ReferenceIdeal.Read.val_main_v16 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [Cert.ReferenceIdeal.RefValue.ref_eq]
  unfold result
  rw [arrW_eq, arrS_eq, show arrX m c = m ((c : Thread nD τ).loc main_arg0) from V_main_arg0 m c]

end Cert.KernelIdeal.Body

end
-- ==== Proof.lean ====
/-
  A binarized matrix product against its reference, on the extended reals.

  The kernel multiplies the entrywise sign of an 8192 × 4096 array by the entrywise sign of a 4096 × 2048 array of weights
  (taken, and narrowed to sixteen bits, by host operations before the launch) and scales column q of the product by entry q
  of a row of 2048 scales, relu α · relu β_i · relu γ_j at q = 64 i + j. It works on a grid of 8 row blocks × 2 column blocks × 8
  steps of the contraction axis: each point multiplies a 1024 × 512 block of signs by a 512 × 1024 block of the weights'
  signs on the matrix unit, the first step of a run of eight stores the product into an accumulator that the kernel keeps
  between points, the later steps add to it, and the last step writes the accumulator times the scale row to the output
  block. The reference computes sign(X) · sign(W) as one dot product and multiplies by the same scales.

  On the extended reals the two agree with no finiteness of any entry: the kernel's sign of an entry is the sign function
  at every extended real, a change of float format is the identity, the accumulator after step k of a run is the sum of the
  partial dot products of steps 0 … k, eight partial dot products over 512 consecutive positions make up the dot product over
  all 4096 (addition is commutative and associative), and the scaling is applied after the sum on both sides. The one
  rewrite of the idealization, the sign-bit read, is its rule's statement.

  The three frames: each kernel program's by running its body once for each position a point can have in its run of eight
  steps and carrying the accumulator through the pipeline's invariant; the reference's is its run with the result dropped.
-/
import proofs.«161092_j21517786153628_2_alg».proof.Defs
import proofs.«161092_j21517786153628_2_alg».proof.Proof.Gen.Kernel
import proofs.«161092_j21517786153628_2_alg».proof.Proof.Gen.KernelIdeal
import proofs.«161092_j21517786153628_2_alg».proof.Proof.Gen.ReferenceIdeal
import proofs.«161092_j21517786153628_2_alg».proof.Proof.Gen.Pre_finite_inputs
import proofs.«161092_j21517786153628_2_alg».proof.Proof.Gen.ReferenceIdeal.Run
import proofs.«161092_j21517786153628_2_alg».proof.Proof.Gen.ReferenceIdeal.Read
import proofs.«161092_j21517786153628_2_alg».proof.Proof.BitsPipeline
import proofs.«161092_j21517786153628_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: one with an entry's sign bit is -1 below zero and 1 elsewhere. -/
theorem preserves : Cert.preserves_Kernel_KernelIdeal := IdealRules.sign_bit.statement Cert.KernelIdeal.S1024x512 .f32

/-- From memories that agree on the arguments the two idealized programs end with the same result array: the kernel's
    is the scaled product of the sign matrices, which is the reference's term of the arguments. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2.1, (hagree c).2.2.2.2]
  exact (Cert.KernelIdeal.Body.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
